-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S64x2048x2048 : Shape := ⟨3, ![64, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S1x512 : Shape := ⟨2, ![1, 512]⟩
abbrev S1x512x1 : Shape := ⟨3, ![1, 512, 1]⟩
abbrev S4x16x2048x2048 : Shape := ⟨4, ![4, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S64x2048x2048, .f32⟩
  | .hbm, ⟨8, _⟩ => ⟨S4x16x2048x64, .f32⟩
  | .hbm, ⟨9, _⟩ => ⟨S4x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S1x512x64 : S1x512x64.ShapeCasts S1x512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  inb_S1x512x2048_S1x512x2048_0_0_0 : ∀ a, (![0, 0, 0] : Fin 3 → Nat) a + S1x512x2048.size a ≤ S1x512x2048.size a
  h_S1x512x2048 : 0 < S1x512x2048.numel
  shapeCasts_S64x2048x64_S4x16x2048x64 : S64x2048x64.ShapeCasts S4x16x2048x64
  shapeCasts_S64x2048x2048_S4x16x2048x2048 : S64x2048x2048.ShapeCasts S4x16x2048x2048
  dot_S1x512x64_S1x2048x64_S1x512x2048_2_2_1_1_0_0_wf : DotDims.WF S1x512x64 S1x2048x64 S1x512x2048 [2] [2] [1] [1] [0] [0]
  dot_S1x512x2048_S1x2048x64_S1x512x64_2_1_1_2_0_0_wf : DotDims.WF S1x512x2048 S1x2048x64 S1x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S64x2048x2048.size a
  hwx0_4 : ∀ i : grid0.Coords, EltTy.bits .f32 = 32 ∨ (Rect.block (s := S64x2048x2048) S1x512x2048.size (cc0_transform_4 i) (hinb0_4 i)).WholeWords (EltTy.packing .f32)

variable [Facts₀]

def dot_S1x512x64_S1x2048x64_S1x512x2048_2_2_1_1_0_0 : DotDims S1x512x64 S1x2048x64 S1x512x2048 where
  lhsContracting := [2]
  rhsContracting := [2]
  lhsNonContracting := [1]
  rhsNonContracting := [1]
  lhsBatch := [0]
  rhsBatch := [0]
  wf := dot_S1x512x64_S1x2048x64_S1x512x2048_2_2_1_1_0_0_wf
def dot_S1x512x2048_S1x2048x64_S1x512x64_2_1_1_2_0_0 : DotDims S1x512x2048 S1x2048x64 S1x512x64 where
  lhsContracting := [2]
  rhsContracting := [1]
  lhsNonContracting := [1]
  rhsNonContracting := [2]
  lhsBatch := [0]
  rhsBatch := [0]
  wf := dot_S1x512x2048_S1x2048x64_S1x512x64_2_1_1_2_0_0_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibLastAxisMax.lean ====
/-
  Maxima along the LAST axis of an array, read at an index given by its coordinates.

  The maximum along the last axis of [a, b, c], read at (p, q), ranges over the entries (p, q, k) with p and q
  held; along the last axis of [a, b, c, d], read at (p, q, r), over the entries (p, q, r, k). On the extended
  reals the maximum is the fold of max from the accumulator's value, in any order. A fold of max is never below
  the value it starts from, so taking the maximum of that value with the fold changes nothing: a row maximum
  that is clamped from below by its own starting value is the row maximum. General in the extents.
-/
import Idealize.ShloMosaic.Lib.Pipeline.Value
import Idealize.ShloMosaic.Lib.ValueIdx
import Idealize.ShloMosaic.PureOps.Ideal.Laws

namespace Cert.LastAxisMax

open Idealize.ShloMosaic Idealize.ShloMosaic.ValueIdx

/-! ## The reduced index with the last coordinate put back -/

theorem lift_last3 {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

theorem lift_last4 {a b c d : ℕ} (h : (⟨4, ![a, b, c, d]⟩ : Shape).Reduces [3] ⟨3, ![a, b, c]⟩) (p : Fin a) (q : Fin b)
    (r : Fin c) (k : Fin ((⟨4, ![a, b, c, d]⟩ : Shape).size 3)) :
    h.lift (ix3 p q r) k = ix4 p q r (⟨k.val, k.isLt⟩ : Fin d) := by
  funext e; apply Fin.ext
  fin_cases e <;> rfl

/-! ## A kernel's maximum along the last axis of a rank-three array, from the accumulator at minus infinity -/

/-- At (p, q): the fold of max from the accumulator's value over the entries (p, q, k). -/
theorem max_last {a b c : ℕ} (src : FVec Ideal ⟨3, ![a, b, c]⟩ .f32) (h : (⟨3, ![a, b, c]⟩ : Shape).Reduces [2] ⟨2, ![a, b]⟩)
    (p : Fin a) (q : Fin b) :
    multiReduction .maximumf [2] ⟨2, ![a, b]⟩ src 0xFF800000#32 h (.inl rfl) rfl (ix2 p q)
      = (Finset.univ : Finset (Fin c)).fold max (Ideal.ofBits .f32 0xFF800000#32) (fun k => src (ix3 p q k)) :=
  (Ideal.multiReduction_maximumf_single src 0xFF800000#32 h (.inl rfl) rfl (ix2 p q)).trans
    (congrArg ((Finset.univ : Finset (Fin c)).fold max (Ideal.ofBits .f32 0xFF800000#32))
      (funext fun k => congrArg src (lift_last3 h p q k)))

/-! ## The host's reduce with a maximum body along the last axis of a rank-four array -/

/-- At (p, q, r), from a rank-zero initial value: the fold of max from that value over the entries (p, q, r, k). -/
theorem hostMax_last4 {a b c d : ℕ} (x : FVec Ideal ⟨4, ![a, b, c, d]⟩ .f32) (init : FVec Ideal ⟨0, ![]⟩ .f32)
    (h' : (⟨4, ![a, b, c, d]⟩ : Shape).ReducesTo [3] ⟨3, ![a, b, c]⟩) (h : (⟨4, ![a, b, c, d]⟩ : Shape).Reduces [3] ⟨3, ![a, b, c]⟩)
    (hu : 0 < (⟨0, ![]⟩ : Shape).numel) (p : Fin a) (q : Fin b) (r : Fin c) :
    Host.reduce FloatOps.maximumf x init h' hu (ix3 p q r)
      = (Finset.univ : Finset (Fin d)).fold max (init ix0) (fun k => x (ix4 p q r k)) := by
  rw [Host.reduce_eq_fold_single FloatOps.maximumf x init h' h hu (ix3 p q r)]
  have e0 : Shape.Idx.first hu = ix0 := funext fun d => d.elim0
  rw [e0]
  exact congrArg ((Finset.univ : Finset (Fin d)).fold max (init ix0)) (funext fun k => congrArg x (lift_last4 h p q r k))

/-! ## A fold of max is above its starting value -/

/-- The maximum of the starting value with the fold is the fold. -/
theorem max_init_fold {ι : Type} (s : Finset ι) (b : EReal) (f : ι → EReal) : max b (s.fold max b f) = s.fold max b f :=
  max_eq_right ((Finset.le_fold_max b).mpr (Or.inl le_rfl))

end Cert.LastAxisMax
-- ==== Proof.LibMergeLeadingAxes.lean ====
/-
  The two leading axes of a rank-four array merged into one, and split again, read at an index.

  An array [a, b, c, d] and the array [n, c, d], n = a * b, whose leading axis runs over the pairs (i, j) in
  row-major order hold the same entries in the same order: entry (i * b + j, p, q) of the merged array is entry
  (i, j, p, q) of the split one. The leading position is given by an equation, so a literal position matches
  by rfl. General in the extents and in the element type.
-/
import Idealize.ShloMosaic.Lib.Pipeline.Value
import Idealize.ShloMosaic.Lib.ValueIdx

namespace Cert.MergeLeadingAxes

open Idealize.ShloMosaic Idealize.ShloMosaic.ValueIdx

variable {α : Type}

/-- [a, b, c, d] cast to [n, c, d]: entry (r, p, q) with r = i * b + j is entry (i, j, p, q). -/
theorem shapeCast_split_merged_apply {a b c d n : ℕ} (x : (⟨4, ![a, b, c, d]⟩ : Shape).Idx → α)
    (h : (⟨4, ![a, b, c, d]⟩ : Shape).ShapeCasts ⟨3, ![n, c, d]⟩) (r : Fin n) (i : Fin a) (j : Fin b) (p : Fin c) (q : Fin d)
    (hr : r.val = i.val * b + j.val) : shapeCast ⟨3, ![n, c, d]⟩ x h (ix3 r p q) = x (ix4 i j p q) :=
  shapeCast_apply x h _ _ (by
    rw [Shape.rowMajor_val_four, Shape.rowMajor_val_three]
    show ((i.val * b + j.val) * c + p.val) * d + q.val = (r.val * c + p.val) * d + q.val
    rw [hr])

/-- [n, c, d] cast to [a, b, c, d]: entry (i, j, p, q) is entry (r, p, q) with r = i * b + j. -/
theorem shapeCast_merged_split_apply {a b c d n : ℕ} (x : (⟨3, ![n, c, d]⟩ : Shape).Idx → α)
    (h : (⟨3, ![n, c, d]⟩ : Shape).ShapeCasts ⟨4, ![a, b, c, d]⟩) (r : Fin n) (i : Fin a) (j : Fin b) (p : Fin c) (q : Fin d)
    (hr : r.val = i.val * b + j.val) : shapeCast ⟨4, ![a, b, c, d]⟩ x h (ix4 i j p q) = x (ix3 r p q) :=
  shapeCast_apply x h _ _ (by
    rw [Shape.rowMajor_val_three, Shape.rowMajor_val_four]
    show (r.val * c + p.val) * d + q.val = ((i.val * b + j.val) * c + p.val) * d + q.val
    rw [hr])

end Cert.MergeLeadingAxes
-- ==== Proof.Spec.lean ====
/-
  Scaled dot-product attention with its weights, as one function of the query, key and value arrays.

  For one query row the scores against the 2048 key rows are the dot products over the 64 features, each
  times the scale 2^-3 (the word 0x3E000000); the row's weights are its softmax, taken the stable way: with
  M the largest score (a fold of max from minus infinity), weight k is exp (s k - M) divided by the sum over j
  of exp (s j - M); the output row is the weights' combination of the value rows. Every operation is the
  extended reals' own, so nothing here asks the entries to be finite.

  The arrays come in two layouts holding the same entries in the same order: [4, 16, 2048, ·] (batch, head,
  row, ·) and [64, 2048, ·] with the batch and head merged into one leading position 16 b + h. Attention
  works head by head, so computing it on the merged arrays and splitting the results again is computing it on
  the split arrays: `weights_merge`, `mixed_merge`.
-/
import Idealize.ShloMosaic.PureOps.Ideal.Laws
import Idealize.ShloMosaic.Lib.ValueIdx
import Idealize.ShloMosaic.Lib.Pipeline.Value
import proofs.«163219_j20066087207356_2_alg».proof.Proof.LibMergeLeadingAxes

noncomputable section

namespace Cert.Attention

open Idealize.ShloMosaic Idealize.ShloMosaic.ValueIdx

/-! ## One row -/

/-- The largest entry of a row: the fold of max from the value of the word for minus infinity. -/
def rowMax {n : ℕ} (s : Fin n → EReal) : EReal :=
  (Finset.univ : Finset (Fin n)).fold max (Ideal.ofBits .f32 0xFF800000#32) s

/-- The softmax of a row, entry k: exp (s k - M) over the sum of the exp (s j - M), M the row's largest entry. -/
def softmaxRow {n : ℕ} (s : Fin n → EReal) (k : Fin n) : EReal :=
  Ideal.div (Ideal.exp (s k - rowMax s)) (∑ j : Fin n, Ideal.exp (s j - rowMax s))

/-! ## Batch and head merged: arrays [64, 2048, ·] -/

/-- The scaled scores of query row r of head n against every key row of that head. -/
def scores (q k : FVec Ideal ⟨3, ![64, 2048, 64]⟩ .f32) (n : Fin 64) (r : Fin 2048) : Fin 2048 → EReal :=
  fun j => (∑ d : Fin 64, q (ix3 n r d) * k (ix3 n j d)) * Ideal.ofBits .f32 0x3E000000#32

/-- The attention weights: entry (n, r, j) is the softmax of query row (n, r)'s scores at key row j. -/
def weights (q k : FVec Ideal ⟨3, ![64, 2048, 64]⟩ .f32) : FVec Ideal ⟨3, ![64, 2048, 2048]⟩ .f32 :=
  fun i => softmaxRow (scores q k (i 0) (i 1)) (i 2)

/-- The attention output: entry (n, r, e) combines feature e of head n's value rows by the weights of row (n, r). -/
def mixed (q k v : FVec Ideal ⟨3, ![64, 2048, 64]⟩ .f32) : FVec Ideal ⟨3, ![64, 2048, 64]⟩ .f32 :=
  fun i => ∑ j : Fin 2048, weights q k (ix3 (i 0) (i 1) j) * v (ix3 (i 0) j (i 2))

theorem weights_apply (q k : FVec Ideal ⟨3, ![64, 2048, 64]⟩ .f32) (n : Fin 64) (r j : Fin 2048) :
    weights q k (ix3 n r j) = softmaxRow (scores q k n r) j := rfl

theorem mixed_apply (q k v : FVec Ideal ⟨3, ![64, 2048, 64]⟩ .f32) (n : Fin 64) (r : Fin 2048) (e : Fin 64) :
    mixed q k v (ix3 n r e) = ∑ j : Fin 2048, weights q k (ix3 n r j) * v (ix3 n j e) := rfl

/-! ## Batch and head apart: arrays [4, 16, 2048, ·] -/

/-- The scaled scores of query row r of head h of batch b against every key row of that head. -/
def scores4 (Q K : FVec Ideal ⟨4, ![4, 16, 2048, 64]⟩ .f32) (b : Fin 4) (h : Fin 16) (r : Fin 2048) : Fin 2048 → EReal :=
  fun j => (∑ d : Fin 64, Q (ix4 b h r d) * K (ix4 b h j d)) * Ideal.ofBits .f32 0x3E000000#32

/-- The attention weights [4, 16, 2048, 2048]. -/
def weights4 (Q K : FVec Ideal ⟨4, ![4, 16, 2048, 64]⟩ .f32) : FVec Ideal ⟨4, ![4, 16, 2048, 2048]⟩ .f32 :=
  fun i => softmaxRow (scores4 Q K (i 0) (i 1) (i 2)) (i 3)

/-- The attention output [4, 16, 2048, 64]. -/
def mixed4 (Q K V : FVec Ideal ⟨4, ![4, 16, 2048, 64]⟩ .f32) : FVec Ideal ⟨4, ![4, 16, 2048, 64]⟩ .f32 :=
  fun i => ∑ j : Fin 2048, weights4 Q K (ix4 (i 0) (i 1) (i 2) j) * V (ix4 (i 0) (i 1) j (i 3))

theorem weights4_apply (Q K : FVec Ideal ⟨4, ![4, 16, 2048, 64]⟩ .f32) (b : Fin 4) (h : Fin 16) (r j : Fin 2048) :
    weights4 Q K (ix4 b h r j) = softmaxRow (scores4 Q K b h r) j := rfl

theorem mixed4_apply (Q K V : FVec Ideal ⟨4, ![4, 16, 2048, 64]⟩ .f32) (b : Fin 4) (h : Fin 16) (r : Fin 2048) (e : Fin 64) :
    mixed4 Q K V (ix4 b h r e) = ∑ j : Fin 2048, weights4 Q K (ix4 b h r j) * V (ix4 b h j e) := rfl

/-! ## Merging batch and head commutes with attention -/

/-- The merged leading position of head h of batch b. -/
def head (b : Fin 4) (h : Fin 16) : Fin 64 := ⟨b.val * 16 + h.val, by omega⟩

/-- The scores of a row of the merged arrays are the scores of that row of the split arrays. -/
theorem scores_merge (Q K : FVec Ideal ⟨4, ![4, 16, 2048, 64]⟩ .f32)
    (hc : (⟨4, ![4, 16, 2048, 64]⟩ : Shape).ShapeCasts ⟨3, ![64, 2048, 64]⟩) (b : Fin 4) (h : Fin 16) (r : Fin 2048) :
    scores (shapeCast ⟨3, ![64, 2048, 64]⟩ Q hc) (shapeCast ⟨3, ![64, 2048, 64]⟩ K hc) (head b h) r = scores4 Q K b h r := by
  funext j
  show (∑ d : Fin 64, shapeCast ⟨3, ![64, 2048, 64]⟩ Q hc (ix3 (head b h) r d) * shapeCast ⟨3, ![64, 2048, 64]⟩ K hc (ix3 (head b h) j d)) * _
    = (∑ d : Fin 64, Q (ix4 b h r d) * K (ix4 b h j d)) * _
  refine congrArg (· * _) (Finset.sum_congr rfl fun d _ => ?_)
  rw [MergeLeadingAxes.shapeCast_split_merged_apply Q hc (head b h) b h r d rfl,
    MergeLeadingAxes.shapeCast_split_merged_apply K hc (head b h) b h j d rfl]

/-- The weights of the merged arrays, split again, are the weights of the split arrays. -/
theorem weights_merge (Q K : FVec Ideal ⟨4, ![4, 16, 2048, 64]⟩ .f32)
    (hc : (⟨4, ![4, 16, 2048, 64]⟩ : Shape).ShapeCasts ⟨3, ![64, 2048, 64]⟩)
    (hw : (⟨3, ![64, 2048, 2048]⟩ : Shape).ShapeCasts ⟨4, ![4, 16, 2048, 2048]⟩) :
    shapeCast ⟨4, ![4, 16, 2048, 2048]⟩
      (weights (shapeCast ⟨3, ![64, 2048, 64]⟩ Q hc) (shapeCast ⟨3, ![64, 2048, 64]⟩ K hc)) hw = weights4 Q K := by
  funext i
  obtain ⟨b, h, r, j, rfl⟩ : ∃ (b : Fin 4) (h : Fin 16) (r : Fin 2048) (j : Fin 2048), i = ix4 b h r j :=
    ⟨i 0, i 1, i 2, i 3, eq_ix4 i⟩
  rw [MergeLeadingAxes.shapeCast_merged_split_apply _ hw (head b h) b h r j rfl, weights_apply, weights4_apply,
    scores_merge]

/-- The output of the merged arrays, split again, is the output of the split arrays. -/
theorem mixed_merge (Q K V : FVec Ideal ⟨4, ![4, 16, 2048, 64]⟩ .f32)
    (hc : (⟨4, ![4, 16, 2048, 64]⟩ : Shape).ShapeCasts ⟨3, ![64, 2048, 64]⟩)
    (ho : (⟨3, ![64, 2048, 64]⟩ : Shape).ShapeCasts ⟨4, ![4, 16, 2048, 64]⟩) :
    shapeCast ⟨4, ![4, 16, 2048, 64]⟩
      (mixed (shapeCast ⟨3, ![64, 2048, 64]⟩ Q hc) (shapeCast ⟨3, ![64, 2048, 64]⟩ K hc)
        (shapeCast ⟨3, ![64, 2048, 64]⟩ V hc)) ho = mixed4 Q K V := by
  funext i
  obtain ⟨b, h, r, e, rfl⟩ : ∃ (b : Fin 4) (h : Fin 16) (r : Fin 2048) (e : Fin 64), i = ix4 b h r e :=
    ⟨i 0, i 1, i 2, i 3, eq_ix4 i⟩
  rw [MergeLeadingAxes.shapeCast_merged_split_apply _ ho (head b h) b h r e rfl, mixed_apply, mixed4_apply]
  refine Finset.sum_congr rfl fun j _ => ?_
  rw [weights_apply, weights4_apply, scores_merge,
    MergeLeadingAxes.shapeCast_split_merged_apply V hc (head b h) b h j e rfl]

end Cert.Attention

end
-- ==== Proof.BodyRead.lean ====
/-
  The kernel body's two stored values, read at an entry of the block.

  At a grid point the body holds a block of 512 query rows of one head, [1, 512, 64], and that head's whole key
  and value blocks, [1, 2048, 64]. The value it stores into the weights block, at (0, r, j), is the softmax of
  row r's scaled scores at j: the product of the query block with the transposed key block, from the zero
  accumulator, is at (0, r, k) the sum over the 64 features of q (0, r, d) * k (0, k, d); it is scaled by 2^-3;
  the row maximum and the row sum of the exponentials are reductions along the last axis, each put back as a
  column [1, 512, 1] and repeated along the row. The value it stores into the output block, at (0, r, e), is the
  product of those weights with the value block: the sum over the 2048 key rows j of weight (0, r, j) * v (0, j, e).
-/
import proofs.«163219_j20066087207356_2_alg».proof.Proof.Gen.KernelIdeal.Skeleton
import proofs.«163219_j20066087207356_2_alg».proof.Proof.LibAxisReads
import proofs.«163219_j20066087207356_2_alg».proof.Proof.LibLastAxisMax
import proofs.«163219_j20066087207356_2_alg».proof.Proof.Spec
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Attention

/-! ## The two products' operand indices, axis by axis -/

theorem lhs_qk_0 (i : S1x512x2048.Idx) (q : dot_S1x512x64_S1x2048x64_S1x512x2048_2_2_1_1_0_0.contr.Idx) :
    (dot_S1x512x64_S1x2048x64_S1x512x2048_2_2_1_1_0_0.lhsIdx i q 0).val = (i 0).val := by
  unfold DotDims.lhsIdx
  rw [dif_pos (show (0 : Fin S1x512x64.rank) ∈ dot_S1x512x64_S1x2048x64_S1x512x2048_2_2_1_1_0_0.lhsBatch by decide)]
  rfl
theorem lhs_qk_1 (i : S1x512x2048.Idx) (q : dot_S1x512x64_S1x2048x64_S1x512x2048_2_2_1_1_0_0.contr.Idx) :
    (dot_S1x512x64_S1x2048x64_S1x512x2048_2_2_1_1_0_0.lhsIdx i q 1).val = (i 1).val := by
  unfold DotDims.lhsIdx
  rw [dif_neg (show ¬(1 : Fin S1x512x64.rank) ∈ dot_S1x512x64_S1x2048x64_S1x512x2048_2_2_1_1_0_0.lhsBatch by decide), dif_pos (show (1 : Fin S1x512x64.rank) ∈ dot_S1x512x64_S1x2048x64_S1x512x2048_2_2_1_1_0_0.lhsNonContracting by decide)]
  rfl
theorem lhs_qk_2 (i : S1x512x2048.Idx) (q : dot_S1x512x64_S1x2048x64_S1x512x2048_2_2_1_1_0_0.contr.Idx) :
    (dot_S1x512x64_S1x2048x64_S1x512x2048_2_2_1_1_0_0.lhsIdx i q 2).val = (q ⟨0, by decide⟩).val :=
  dot_S1x512x64_S1x2048x64_S1x512x2048_2_2_1_1_0_0.lhsIdx_val_of_single rfl i q
theorem rhs_qk_0 (i : S1x512x2048.Idx) (q : dot_S1x512x64_S1x2048x64_S1x512x2048_2_2_1_1_0_0.contr.Idx) :
    (dot_S1x512x64_S1x2048x64_S1x512x2048_2_2_1_1_0_0.rhsIdx i q 0).val = (i 0).val := by
  unfold DotDims.rhsIdx
  rw [dif_pos (show (0 : Fin S1x2048x64.rank) ∈ dot_S1x512x64_S1x2048x64_S1x512x2048_2_2_1_1_0_0.rhsBatch by decide)]
  rfl
theorem rhs_qk_1 (i : S1x512x2048.Idx) (q : dot_S1x512x64_S1x2048x64_S1x512x2048_2_2_1_1_0_0.contr.Idx) :
    (dot_S1x512x64_S1x2048x64_S1x512x2048_2_2_1_1_0_0.rhsIdx i q 1).val = (i 2).val := by
  unfold DotDims.rhsIdx
  rw [dif_neg (show ¬(1 : Fin S1x2048x64.rank) ∈ dot_S1x512x64_S1x2048x64_S1x512x2048_2_2_1_1_0_0.rhsBatch by decide), dif_pos (show (1 : Fin S1x2048x64.rank) ∈ dot_S1x512x64_S1x2048x64_S1x512x2048_2_2_1_1_0_0.rhsNonContracting by decide)]
  rfl
theorem rhs_qk_2 (i : S1x512x2048.Idx) (q : dot_S1x512x64_S1x2048x64_S1x512x2048_2_2_1_1_0_0.contr.Idx) :
    (dot_S1x512x64_S1x2048x64_S1x512x2048_2_2_1_1_0_0.rhsIdx i q 2).val = (q ⟨0, by decide⟩).val :=
  dot_S1x512x64_S1x2048x64_S1x512x2048_2_2_1_1_0_0.rhsIdx_val_of_single rfl i q

theorem lhs_av_0 (i : S1x512x64.Idx) (q : dot_S1x512x2048_S1x2048x64_S1x512x64_2_1_1_2_0_0.contr.Idx) :
    (dot_S1x512x2048_S1x2048x64_S1x512x64_2_1_1_2_0_0.lhsIdx i q 0).val = (i 0).val := by
  unfold DotDims.lhsIdx
  rw [dif_pos (show (0 : Fin S1x512x2048.rank) ∈ dot_S1x512x2048_S1x2048x64_S1x512x64_2_1_1_2_0_0.lhsBatch by decide)]
  rfl
theorem lhs_av_1 (i : S1x512x64.Idx) (q : dot_S1x512x2048_S1x2048x64_S1x512x64_2_1_1_2_0_0.contr.Idx) :
    (dot_S1x512x2048_S1x2048x64_S1x512x64_2_1_1_2_0_0.lhsIdx i q 1).val = (i 1).val := by
  unfold DotDims.lhsIdx
  rw [dif_neg (show ¬(1 : Fin S1x512x2048.rank) ∈ dot_S1x512x2048_S1x2048x64_S1x512x64_2_1_1_2_0_0.lhsBatch by decide), dif_pos (show (1 : Fin S1x512x2048.rank) ∈ dot_S1x512x2048_S1x2048x64_S1x512x64_2_1_1_2_0_0.lhsNonContracting by decide)]
  rfl
theorem lhs_av_2 (i : S1x512x64.Idx) (q : dot_S1x512x2048_S1x2048x64_S1x512x64_2_1_1_2_0_0.contr.Idx) :
    (dot_S1x512x2048_S1x2048x64_S1x512x64_2_1_1_2_0_0.lhsIdx i q 2).val = (q ⟨0, by decide⟩).val :=
  dot_S1x512x2048_S1x2048x64_S1x512x64_2_1_1_2_0_0.lhsIdx_val_of_single rfl i q
theorem rhs_av_0 (i : S1x512x64.Idx) (q : dot_S1x512x2048_S1x2048x64_S1x512x64_2_1_1_2_0_0.contr.Idx) :
    (dot_S1x512x2048_S1x2048x64_S1x512x64_2_1_1_2_0_0.rhsIdx i q 0).val = (i 0).val := by
  unfold DotDims.rhsIdx
  rw [dif_pos (show (0 : Fin S1x2048x64.rank) ∈ dot_S1x512x2048_S1x2048x64_S1x512x64_2_1_1_2_0_0.rhsBatch by decide)]
  rfl
theorem rhs_av_1 (i : S1x512x64.Idx) (q : dot_S1x512x2048_S1x2048x64_S1x512x64_2_1_1_2_0_0.contr.Idx) :
    (dot_S1x512x2048_S1x2048x64_S1x512x64_2_1_1_2_0_0.rhsIdx i q 1).val = (q ⟨0, by decide⟩).val :=
  dot_S1x512x2048_S1x2048x64_S1x512x64_2_1_1_2_0_0.rhsIdx_val_of_single rfl i q
theorem rhs_av_2 (i : S1x512x64.Idx) (q : dot_S1x512x2048_S1x2048x64_S1x512x64_2_1_1_2_0_0.contr.Idx) :
    (dot_S1x512x2048_S1x2048x64_S1x512x64_2_1_1_2_0_0.rhsIdx i q 2).val = (i 2).val := by
  unfold DotDims.rhsIdx
  rw [dif_neg (show ¬(2 : Fin S1x2048x64.rank) ∈ dot_S1x512x2048_S1x2048x64_S1x512x64_2_1_1_2_0_0.rhsBatch by decide), dif_pos (show (2 : Fin S1x2048x64.rank) ∈ dot_S1x512x2048_S1x2048x64_S1x512x64_2_1_1_2_0_0.rhsNonContracting by decide)]
  rfl

/-! ## The two products at an entry -/

/-- Query block times transposed key block from the zero accumulator, at (u, r, j): the sum over the features. -/
theorem qk_apply (x0 : FVec Ideal S1x512x64 .f32) (x1 : FVec Ideal S1x2048x64 .f32) (u : Fin 1) (r : Fin 512) (j : Fin 2048) :
    matmul dot_S1x512x64_S1x2048x64_S1x512x2048_2_2_1_1_0_0 (some .fp32) x0 x1 (constant S1x512x2048 .f32 0x00000000#32) (ix3 u r j)
      = ∑ d : Fin 64, x0 (ix3 u r d) * x1 (ix3 u j d) := by
  simp only [matmul]
  rw [Ideal.matmul_constant_zero_apply, ← Equiv.sum_comp (ValueIdx.contrEquiv1 dot_S1x512x64_S1x2048x64_S1x512x2048_2_2_1_1_0_0 64 rfl rfl).symm]
  refine Finset.sum_congr rfl fun d _ => ?_
  have hd := ValueIdx.contrEquiv1_symm_val dot_S1x512x64_S1x2048x64_S1x512x2048_2_2_1_1_0_0 64 rfl rfl d
  have el : dot_S1x512x64_S1x2048x64_S1x512x2048_2_2_1_1_0_0.lhsIdx (ix3 u r j) ((ValueIdx.contrEquiv1 dot_S1x512x64_S1x2048x64_S1x512x2048_2_2_1_1_0_0 64 rfl rfl).symm d) = ix3 u r d := funext fun a => Fin.ext (by
    match a with
    | ⟨0, _⟩ => exact lhs_qk_0 _ _
    | ⟨1, _⟩ => exact lhs_qk_1 _ _
    | ⟨2, _⟩ => exact (lhs_qk_2 _ _).trans hd)
  have er : dot_S1x512x64_S1x2048x64_S1x512x2048_2_2_1_1_0_0.rhsIdx (ix3 u r j) ((ValueIdx.contrEquiv1 dot_S1x512x64_S1x2048x64_S1x512x2048_2_2_1_1_0_0 64 rfl rfl).symm d) = ix3 u j d := funext fun a => Fin.ext (by
    match a with
    | ⟨0, _⟩ => exact rhs_qk_0 _ _
    | ⟨1, _⟩ => exact rhs_qk_1 _ _
    | ⟨2, _⟩ => exact (rhs_qk_2 _ _).trans hd)
  rw [el, er]

/-- Weights block times value block from the zero accumulator, at (u, r, e): the sum over the key rows. -/
theorem av_apply (w : FVec Ideal S1x512x2048 .f32) (x2 : FVec Ideal S1x2048x64 .f32) (u : Fin 1) (r : Fin 512) (e : Fin 64) :
    matmul dot_S1x512x2048_S1x2048x64_S1x512x64_2_1_1_2_0_0 (some .fp32) w x2 (constant S1x512x64 .f32 0x00000000#32) (ix3 u r e)
      = ∑ j : Fin 2048, w (ix3 u r j) * x2 (ix3 u j e) := by
  simp only [matmul]
  rw [Ideal.matmul_constant_zero_apply, ← Equiv.sum_comp (ValueIdx.contrEquiv1 dot_S1x512x2048_S1x2048x64_S1x512x64_2_1_1_2_0_0 2048 rfl rfl).symm]
  refine Finset.sum_congr rfl fun j _ => ?_
  have hj := ValueIdx.contrEquiv1_symm_val dot_S1x512x2048_S1x2048x64_S1x512x64_2_1_1_2_0_0 2048 rfl rfl j
  have el : dot_S1x512x2048_S1x2048x64_S1x512x64_2_1_1_2_0_0.lhsIdx (ix3 u r e) ((ValueIdx.contrEquiv1 dot_S1x512x2048_S1x2048x64_S1x512x64_2_1_1_2_0_0 2048 rfl rfl).symm j) = ix3 u r j := funext fun a => Fin.ext (by
    match a with
    | ⟨0, _⟩ => exact lhs_av_0 _ _
    | ⟨1, _⟩ => exact lhs_av_1 _ _
    | ⟨2, _⟩ => exact (lhs_av_2 _ _).trans hj)
  have er : dot_S1x512x2048_S1x2048x64_S1x512x64_2_1_1_2_0_0.rhsIdx (ix3 u r e) ((ValueIdx.contrEquiv1 dot_S1x512x2048_S1x2048x64_S1x512x64_2_1_1_2_0_0 2048 rfl rfl).symm j) = ix3 u j e := funext fun a => Fin.ext (by
    match a with
    | ⟨0, _⟩ => exact rhs_av_0 _ _
    | ⟨1, _⟩ => exact (rhs_av_1 _ _).trans hj
    | ⟨2, _⟩ => exact rhs_av_2 _ _)
  rw [el, er]

/-! ## The body's steps as functions of the block of scaled scores -/

/-- A row statistic [1, 512] made a column and repeated along each row of the block. -/
def alongRows (w : FVec Ideal S1x512 .f32) : FVec Ideal S1x512x2048 .f32 :=
  broadcastTo S1x512x2048 (shapeCast S1x512x1 w shapeCasts_S1x512_S1x512x1) broadcasts_S1x512x1_S1x512x2048

/-- The exponentials of the scores less their row's maximum. -/
def shifted (s : FVec Ideal S1x512x2048 .f32) : FVec Ideal S1x512x2048 .f32 :=
  exp (subf s (alongRows (multiReduction .maximumf [2] S1x512 s 0xFF800000#32 reduces_S1x512x2048_S1x512 (.inl rfl) rfl)))

/-- Those exponentials over their row's sum. -/
def normalized (s : FVec Ideal S1x512x2048 .f32) : FVec Ideal S1x512x2048 .f32 :=
  divf (shifted s) (alongRows (multiReduction .add [2] S1x512 (shifted s) 0x00000000#32 reduces_S1x512x2048_S1x512 (.inl rfl) rfl))

/-- The scaled scores of the block's query rows against the head's key rows. -/
def scaledScores (x0 : Vec Ideal S1x512x64 .f32) (x1 : Vec Ideal S1x2048x64 .f32) : FVec Ideal S1x512x2048 .f32 :=
  mulf (matmul dot_S1x512x64_S1x2048x64_S1x512x2048_2_2_1_1_0_0 (some .fp32) (shapeCast S1x512x64 x0 shapeCasts_S1x512x64_S1x512x64 : FVec Ideal S1x512x64 .f32)
      (shapeCast S1x2048x64 x1 shapeCasts_S1x2048x64_S1x2048x64 : FVec Ideal S1x2048x64 .f32) (constant S1x512x2048 .f32 0x00000000#32))
    (broadcast S1x512x2048 (Scalar.ofBits .f32 0x3E000000#32))

/-- The value stored into the weights block is these steps in turn. -/
theorem pay1_eq (x0 : Vec Ideal S1x512x64 .f32) (x1 : Vec Ideal S1x2048x64 .f32) :
    k0_pay1 (F := Ideal) x0 x1 = normalized (scaledScores x0 x1) := rfl

/-- The value stored into the output block is the stored weights times the value block. -/
theorem pay2_eq (x0 : Vec Ideal S1x512x64 .f32) (x1 x2 : Vec Ideal S1x2048x64 .f32) :
    k0_pay2 (F := Ideal) x0 x1 x2 = matmul dot_S1x512x2048_S1x2048x64_S1x512x64_2_1_1_2_0_0 (some .fp32) (k0_pay1 (F := Ideal) x0 x1)
      (shapeCast S1x2048x64 x2 shapeCasts_S1x2048x64_S1x2048x64 : FVec Ideal S1x2048x64 .f32) (constant S1x512x64 .f32 0x00000000#32) := rfl

theorem alongRows_apply (w : FVec Ideal S1x512 .f32) (u : Fin 1) (r : Fin 512) (j : Fin 2048) :
    alongRows w (ix3 u r j) = w (ix2 u r) :=
  (AxisReads.broadcastTo_ab1_abc_apply _ broadcasts_S1x512x1_S1x512x2048 u r j).trans
    (AxisReads.shapeCast_ab_ab1_apply w shapeCasts_S1x512_S1x512x1 u r (0 : Fin 1))

theorem shifted_apply (s : FVec Ideal S1x512x2048 .f32) (u : Fin 1) (r : Fin 512) (j : Fin 2048) :
    shifted s (ix3 u r j) = Ideal.exp (s (ix3 u r j) - rowMax (fun k => s (ix3 u r k))) :=
  congrArg (fun z => Ideal.exp (s (ix3 u r j) - z))
    ((alongRows_apply _ u r j).trans (LastAxisMax.max_last s reduces_S1x512x2048_S1x512 u r))

theorem normalized_apply (s : FVec Ideal S1x512x2048 .f32) (u : Fin 1) (r : Fin 512) (j : Fin 2048) :
    normalized s (ix3 u r j) = softmaxRow (fun k => s (ix3 u r k)) j := by
  have hsum : alongRows (multiReduction .add [2] S1x512 (shifted s) 0x00000000#32 reduces_S1x512x2048_S1x512 (.inl rfl) rfl) (ix3 u r j)
      = ∑ k : Fin 2048, Ideal.exp (s (ix3 u r k) - rowMax (fun k => s (ix3 u r k))) :=
    ((alongRows_apply _ u r j).trans (AxisReads.sum_last (shifted s) reduces_S1x512x2048_S1x512 u r)).trans
      (Finset.sum_congr rfl fun k _ => shifted_apply s u r k)
  show Ideal.div (shifted s (ix3 u r j)) (alongRows _ (ix3 u r j)) = _
  rw [hsum, shifted_apply]
  rfl

theorem scaledScores_apply (x0 : Vec Ideal S1x512x64 .f32) (x1 : Vec Ideal S1x2048x64 .f32) (u : Fin 1) (r : Fin 512) (j : Fin 2048) :
    scaledScores x0 x1 (ix3 u r j) = (∑ d : Fin 64, x0 (ix3 u r d) * x1 (ix3 u j d)) * Ideal.ofBits .f32 0x3E000000#32 := by
  show matmul dot_S1x512x64_S1x2048x64_S1x512x2048_2_2_1_1_0_0 (some .fp32) (shapeCast S1x512x64 x0 shapeCasts_S1x512x64_S1x512x64 : FVec Ideal S1x512x64 .f32)
      (shapeCast S1x2048x64 x1 shapeCasts_S1x2048x64_S1x2048x64 : FVec Ideal S1x2048x64 .f32) (constant S1x512x2048 .f32 0x00000000#32) (ix3 u r j)
    * Ideal.ofBits .f32 0x3E000000#32 = _
  rw [shapeCast_self, shapeCast_self, qk_apply]

/-! ## The stored values at an entry -/

/-- The weights block at (u, r, j): the softmax of row r's scaled scores, at j. -/
theorem pay1_apply (x0 : Vec Ideal S1x512x64 .f32) (x1 : Vec Ideal S1x2048x64 .f32) (u : Fin 1) (r : Fin 512) (j : Fin 2048) :
    k0_pay1 (F := Ideal) x0 x1 (ix3 u r j)
      = softmaxRow (fun k => (∑ d : Fin 64, x0 (ix3 u r d) * x1 (ix3 u k d)) * Ideal.ofBits .f32 0x3E000000#32) j := by
  rw [pay1_eq, normalized_apply]
  exact congrArg (fun s => softmaxRow s j) (funext fun k => scaledScores_apply x0 x1 u r k)

/-- The output block at (u, r, e): the stored weights of row r against feature e of the value rows. -/
theorem pay2_apply (x0 : Vec Ideal S1x512x64 .f32) (x1 x2 : Vec Ideal S1x2048x64 .f32) (u : Fin 1) (r : Fin 512) (e : Fin 64) :
    k0_pay2 (F := Ideal) x0 x1 x2 (ix3 u r e) = ∑ j : Fin 2048, k0_pay1 (F := Ideal) x0 x1 (ix3 u r j) * x2 (ix3 u j e) := by
  rw [pay2_eq, shapeCast_self]
  exact av_apply _ x2 u r e

end Cert.KernelIdeal.Body

end
-- ==== Proof.Blocks.lean ====
/-
  From blocks to arrays: the kernel region's two output arrays as attention on its three input arrays.

  The grid has 256 points; point t works on head t / 4 and on query rows 512 (t % 4) … 512 (t % 4) + 511 of that
  head. There it holds the block [1, 512, 64] of those query rows and the head's whole key and value blocks
  [1, 2048, 64], and writes back the block [1, 512, 2048] of the weights array and the block [1, 512, 64] of the
  output array at the same head and rows. A row of the attention weights, and of the output, depends on its own
  query row and on the key and value rows of its head only: so what the point writes back is that block of the
  whole-array functions `weights` and `mixed` of the three arrays as the region finds them. The blocks of the 256
  points tile each output array (row r of head n is point 4 n + r / 512's), so the arrays end holding those functions.
-/
import proofs.«163219_j20066087207356_2_alg».proof.Proof.Gen.KernelIdeal.Frame
import proofs.«163219_j20066087207356_2_alg».proof.Proof.BodyRead
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ)

theorem offsets_zero : (![0, 0, 0] : Fin 3 → Nat) = fun _ => 0 := funext fun a => by fin_cases a <;> rfl

/-! ## The index maps over the grid -/

/-- Point t's block indices, window by window: head t / 4 on the leading axis of all five; row block t % 4 on the
    second axis of the query block and of the two outputs; the key and value blocks are whole heads. -/
theorem index_closed : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0) :=
  (by decide +kernel : ∀ t : Fin grid0.N, _)

theorem point_lt (t : Fin cfg0.N) : t.val < 256 := lt_of_lt_of_eq t.isLt N_0

/-- The head point t works on. -/
def headAt (t : Fin cfg0.N) : Fin 64 := ⟨t.val / 4, by have := point_lt t; omega⟩

/-- The query rows point t works on: row r of its block is row 512 (t % 4) + r of the head. -/
def rowAt (t : Fin cfg0.N) (r : Fin 512) : Fin 2048 := ⟨t.val % 4 * 512 + r.val, by have := r.isLt; omega⟩

/-! ## A block's stored values as the whole-array functions, over any blocks that read the arrays so -/

/-- If a query block holds rows `rows r` of head n and a key block holds head n, the stored weights block holds
    those rows of the weights array. -/
theorem block_weights (q k : FVec Ideal S64x2048x64 .f32) (x0 : Vec Ideal S1x512x64 .f32) (x1 : Vec Ideal S1x2048x64 .f32)
    (n : Fin 64) (rows : Fin 512 → Fin 2048)
    (h0 : ∀ (u : Fin 1) (r : Fin 512) (d : Fin 64), x0 (ix3 u r d) = q (ix3 n (rows r) d))
    (h1 : ∀ (u : Fin 1) (j : Fin 2048) (d : Fin 64), x1 (ix3 u j d) = k (ix3 n j d))
    (u : Fin 1) (r : Fin 512) (j : Fin 2048) :
    k0_pay1 (F := Ideal) x0 x1 (ix3 u r j) = weights q k (ix3 n (rows r) j) := by
  rw [Body.pay1_apply, weights_apply]
  refine congrArg (fun s => softmaxRow s j) (funext fun k' => ?_)
  show (∑ d : Fin 64, x0 (ix3 u r d) * x1 (ix3 u k' d)) * _ = (∑ d : Fin 64, q (ix3 n (rows r) d) * k (ix3 n k' d)) * _
  simp only [h0, h1]

/-- With a value block holding head n as well, the stored output block holds those rows of the output array. -/
theorem block_mixed (q k v : FVec Ideal S64x2048x64 .f32) (x0 : Vec Ideal S1x512x64 .f32) (x1 x2 : Vec Ideal S1x2048x64 .f32)
    (n : Fin 64) (rows : Fin 512 → Fin 2048)
    (h0 : ∀ (u : Fin 1) (r : Fin 512) (d : Fin 64), x0 (ix3 u r d) = q (ix3 n (rows r) d))
    (h1 : ∀ (u : Fin 1) (j : Fin 2048) (d : Fin 64), x1 (ix3 u j d) = k (ix3 n j d))
    (h2 : ∀ (u : Fin 1) (j : Fin 2048) (e : Fin 64), x2 (ix3 u j e) = v (ix3 n j e))
    (u : Fin 1) (r : Fin 512) (e : Fin 64) :
    k0_pay2 (F := Ideal) x0 x1 x2 (ix3 u r e) = mixed q k v (ix3 n (rows r) e) := by
  rw [Body.pay2_apply, mixed_apply]
  refine Finset.sum_congr rfl fun j _ => ?_
  rw [block_weights q k x0 x1 n rows h0 h1 u r j, h2]

/-! ## The input blocks at a point -/

/-- The query block at point t holds rows `rowAt t` of head `headAt t`. -/
theorem qblock_apply (c : Dev nD) (t : Fin cfg0.N) (u : Fin 1) (r : Fin 512) (d : Fin 64) :
    iblk m c 0 t (ix3 u r d) = V m c main_v0 (ix3 (headAt t) (rowAt t r) d) := by
  obtain ⟨⟨e0, e1, e2⟩, -⟩ := index_closed t
  show V m c main_v0 (((cfg0.win 0).blk t).view.emb (ix3 u r d)) = V m c main_v0 _
  refine congrArg (V m c main_v0) (funext fun a => Fin.ext ?_)
  have hu : u.val = 0 := by omega
  match a with
    | ⟨0, _⟩ => show win0_0.index t (0 : Fin 3) * 1 + 1 * u.val = t.val / 4; omega
    | ⟨1, _⟩ => show win0_0.index t (1 : Fin 3) * 512 + 1 * r.val = t.val % 4 * 512 + r.val; omega
    | ⟨2, _⟩ => show win0_0.index t (2 : Fin 3) * 64 + 1 * d.val = d.val; omega

/-- The key block at point t holds head `headAt t`. -/
theorem kblock_apply (c : Dev nD) (t : Fin cfg0.N) (u : Fin 1) (j : Fin 2048) (d : Fin 64) :
    iblk m c 1 t (ix3 u j d) = V m c main_v1 (ix3 (headAt t) j d) := by
  obtain ⟨-, ⟨e0, e1, e2⟩, -⟩ := index_closed t
  show V m c main_v1 (((cfg0.win 1).blk t).view.emb (ix3 u j d)) = V m c main_v1 _
  refine congrArg (V m c main_v1) (funext fun a => Fin.ext ?_)
  have hu : u.val = 0 := by omega
  match a with
    | ⟨0, _⟩ => show win0_1.index t (0 : Fin 3) * 1 + 1 * u.val = t.val / 4; omega
    | ⟨1, _⟩ => show win0_1.index t (1 : Fin 3) * 2048 + 1 * j.val = j.val; omega
    | ⟨2, _⟩ => show win0_1.index t (2 : Fin 3) * 64 + 1 * d.val = d.val; omega

/-- The value block at point t holds head `headAt t`. -/
theorem vblock_apply (c : Dev nD) (t : Fin cfg0.N) (u : Fin 1) (j : Fin 2048) (e : Fin 64) :
    iblk m c 2 t (ix3 u j e) = V m c main_v2 (ix3 (headAt t) j e) := by
  obtain ⟨-, -, ⟨e0, e1, e2⟩, -⟩ := index_closed t
  show V m c main_v2 (((cfg0.win 2).blk t).view.emb (ix3 u j e)) = V m c main_v2 _
  refine congrArg (V m c main_v2) (funext fun a => Fin.ext ?_)
  have hu : u.val = 0 := by omega
  match a with
    | ⟨0, _⟩ => show win0_2.index t (0 : Fin 3) * 1 + 1 * u.val = t.val / 4; omega
    | ⟨1, _⟩ => show win0_2.index t (1 : Fin 3) * 2048 + 1 * j.val = j.val; omega
    | ⟨2, _⟩ => show win0_2.index t (2 : Fin 3) * 64 + 1 * e.val = e.val; omega

/-! ## What a point writes back -/

/-- Point t writes back block t of the weights of the arrays as the region finds them. -/
theorem flushed_weights (c : Dev nD) (t : Fin cfg0.N) :
    (dats m 0 c).flushed 4 t
      = ((cfg0.win 4).blk t).view.read (Elt Ideal) (weights (V m c main_v0) (V m c main_v1)) := by
  show (cfg0.win 4).cut (grid0.coords t) ((dats m 0 c).after 4 t) = _
  rw [after0_4]
  unfold out0_4
  rw [View.canon_unit_zero offsets_zero]
  simp only [View.ld_unit_zero (S := S1x512x64) offsets_zero, View.ld_unit_zero (S := S1x2048x64) offsets_zero]
  obtain ⟨-, -, -, -, ⟨e0, e1, e2⟩⟩ := index_closed t
  funext y
  obtain ⟨u, r, j, rfl⟩ : ∃ (u : Fin 1) (r : Fin 512) (j : Fin 2048), y = ix3 u r j := ⟨y 0, y 1, y 2, eq_ix3 y⟩
  show k0_pay1 (F := Ideal) (iblk m c 0 t) (iblk m c 1 t) (ix3 u r j)
    = weights (V m c main_v0) (V m c main_v1) (((cfg0.win 4).blk t).view.emb (ix3 u r j))
  rw [block_weights (V m c main_v0) (V m c main_v1) (iblk m c 0 t) (iblk m c 1 t) (headAt t) (rowAt t)
    (qblock_apply m c t) (kblock_apply m c t) u r j]
  refine congrArg (weights (V m c main_v0) (V m c main_v1)) (funext fun a => Fin.ext ?_)
  have hu : u.val = 0 := by omega
  match a with
  | ⟨0, _⟩ => show t.val / 4 = win0_4.index t (0 : Fin 3) * 1 + 1 * u.val; omega
  | ⟨1, _⟩ => show t.val % 4 * 512 + r.val = win0_4.index t (1 : Fin 3) * 512 + 1 * r.val; omega
  | ⟨2, _⟩ => show j.val = win0_4.index t (2 : Fin 3) * 2048 + 1 * j.val; omega

/-- Point t writes back block t of the output of the arrays as the region finds them. -/
theorem flushed_mixed (c : Dev nD) (t : Fin cfg0.N) :
    (dats m 0 c).flushed 3 t
      = ((cfg0.win 3).blk t).view.read (Elt Ideal) (mixed (V m c main_v0) (V m c main_v1) (V m c main_v2)) := by
  show (cfg0.win 3).cut (grid0.coords t) ((dats m 0 c).after 3 t) = _
  rw [after0_3]
  unfold out0_3
  rw [View.canon_unit_zero offsets_zero]
  simp only [View.ld_unit_zero (S := S1x512x64) offsets_zero, View.ld_unit_zero (S := S1x2048x64) offsets_zero]
  obtain ⟨-, -, -, ⟨e0, e1, e2⟩, -⟩ := index_closed t
  funext y
  obtain ⟨u, r, e, rfl⟩ : ∃ (u : Fin 1) (r : Fin 512) (e : Fin 64), y = ix3 u r e := ⟨y 0, y 1, y 2, eq_ix3 y⟩
  show k0_pay2 (F := Ideal) (iblk m c 0 t) (iblk m c 1 t) (iblk m c 2 t) (ix3 u r e)
    = mixed (V m c main_v0) (V m c main_v1) (V m c main_v2) (((cfg0.win 3).blk t).view.emb (ix3 u r e))
  rw [block_mixed (V m c main_v0) (V m c main_v1) (V m c main_v2) (iblk m c 0 t) (iblk m c 1 t) (iblk m c 2 t) (headAt t) (rowAt t)
    (qblock_apply m c t) (kblock_apply m c t) (vblock_apply m c t) u r e]
  refine congrArg (mixed (V m c main_v0) (V m c main_v1) (V m c main_v2)) (funext fun a => Fin.ext ?_)
  have hu : u.val = 0 := by omega
  match a with
  | ⟨0, _⟩ => show t.val / 4 = win0_3.index t (0 : Fin 3) * 1 + 1 * u.val; omega
  | ⟨1, _⟩ => show t.val % 4 * 512 + r.val = win0_3.index t (1 : Fin 3) * 512 + 1 * r.val; omega
  | ⟨2, _⟩ => show e.val = win0_3.index t (2 : Fin 3) * 64 + 1 * e.val; omega

/-! ## The blocks tile the output arrays -/

/-- An index of the weights array is in point t's block iff each coordinate is in the block's range on its axis. -/
theorem mem_weights_block (t : Fin cfg0.N) (i : S64x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v3_1).slice (win0_4.rect t)).set ↔ _
  rw [View.set_slice_whole, Rect.mem_set_unit]
  exact Iff.rfl

/-- An index of the output array is in point t's block iff each coordinate is in the block's range on its axis. -/
theorem mem_mixed_block (t : Fin cfg0.N) (i : S64x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3_0).slice (win0_3.rect t)).set ↔ _
  rw [View.set_slice_whole, Rect.mem_set_unit]
  exact Iff.rfl

/-- The point that works on row r of head n. -/
def pointOf (n r : ℕ) (hn : n < 64) (hr : r < 2048) : Fin cfg0.N :=
  ⟨n * 4 + r / 512, by rw [show cfg0.N = 256 from N_0]; omega⟩

/-- Every entry of the weights array is in the block of the point that works on its row. -/
theorem cover_weights (i : S64x2048x2048.Idx) :
    ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 2048 := (i 2).isLt
  refine ⟨pointOf (i 0).val (i 1).val h0 h1, flush0_4 _, ?_⟩
  rw [mem_weights_block]
  obtain ⟨-, -, -, -, ⟨e0, e1, e2⟩⟩ := index_closed (pointOf (i 0).val (i 1).val h0 h1)
  have e0' : win0_4.index (pointOf (i 0).val (i 1).val h0 h1) (0 : Fin 3) = ((i 0).val * 4 + (i 1).val / 512) / 4 := e0
  have e1' : win0_4.index (pointOf (i 0).val (i 1).val h0 h1) (1 : Fin 3) = ((i 0).val * 4 + (i 1).val / 512) % 4 := e1
  intro a
  match a with
  | ⟨0, _⟩ =>
    show win0_4.index _ (0 : Fin 3) * 1 ≤ (i 0).val ∧ (i 0).val < win0_4.index _ (0 : Fin 3) * 1 + 1
    rw [e0']; omega
  | ⟨1, _⟩ =>
    show win0_4.index _ (1 : Fin 3) * 512 ≤ (i 1).val ∧ (i 1).val < win0_4.index _ (1 : Fin 3) * 512 + 512
    rw [e1']; omega
  | ⟨2, _⟩ =>
    show win0_4.index _ (2 : Fin 3) * 2048 ≤ (i 2).val ∧ (i 2).val < win0_4.index _ (2 : Fin 3) * 2048 + 2048
    rw [e2]; omega

/-- Every entry of the output array is in the block of the point that works on its row. -/
theorem cover_mixed (i : S64x2048x64.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 64 := (i 2).isLt
  refine ⟨pointOf (i 0).val (i 1).val h0 h1, flush0_3 _, ?_⟩
  rw [mem_mixed_block]
  obtain ⟨-, -, -, ⟨e0, e1, e2⟩, -⟩ := index_closed (pointOf (i 0).val (i 1).val h0 h1)
  have e0' : win0_3.index (pointOf (i 0).val (i 1).val h0 h1) (0 : Fin 3) = ((i 0).val * 4 + (i 1).val / 512) / 4 := e0
  have e1' : win0_3.index (pointOf (i 0).val (i 1).val h0 h1) (1 : Fin 3) = ((i 0).val * 4 + (i 1).val / 512) % 4 := e1
  intro a
  match a with
  | ⟨0, _⟩ =>
    show win0_3.index _ (0 : Fin 3) * 1 ≤ (i 0).val ∧ (i 0).val < win0_3.index _ (0 : Fin 3) * 1 + 1
    rw [e0']; omega
  | ⟨1, _⟩ =>
    show win0_3.index _ (1 : Fin 3) * 512 ≤ (i 1).val ∧ (i 1).val < win0_3.index _ (1 : Fin 3) * 512 + 512
    rw [e1']; omega
  | ⟨2, _⟩ =>
    show win0_3.index _ (2 : Fin 3) * 64 ≤ (i 2).val ∧ (i 2).val < win0_3.index _ (2 : Fin 3) * 64 + 64
    rw [e2]; omega

/-! ## The two output arrays after the region -/

/-- The weights array ends holding the attention weights of the query and key arrays as the region finds them. -/
theorem final_weights (c : Dev nD) :
    (dats m 0 c).arrAt 4 cfg0.N = weights (V m c main_v0) (V m c main_v1) :=
  (dats m 0 c).arrAt_eq_of_cover 4 (weights (V m c main_v0) (V m c main_v1)) (fun t _ => flushed_weights m c t) cover_weights

/-- The output array ends holding the attention output of the three arrays as the region finds them. -/
theorem final_mixed (c : Dev nD) :
    (dats m 0 c).arrAt 3 cfg0.N = mixed (V m c main_v0) (V m c main_v1) (V m c main_v2) :=
  (dats m 0 c).arrAt_eq_of_cover 3 (mixed (V m c main_v0) (V m c main_v1) (V m c main_v2)) (fun t _ => flushed_mixed m c t) cover_mixed

end Cert.KernelIdeal.Blocks

end
-- ==== Proof.KernelRun.lean ====
/-
  The kernel's run: its two results are attention on its three arguments.

  Before the region the host views each argument [4, 16, 2048, 64] as [64, 2048, 64], batch and head merged; after
  it, it views the region's output [64, 2048, 64] as [4, 16, 2048, 64] and its weights [64, 2048, 2048] as
  [4, 16, 2048, 2048]. The region leaves the merged arrays' attention in its two output arrays; splitting the
  heads again gives the attention of the arguments themselves.
-/
import proofs.«163219_j20066087207356_2_alg».proof.Proof.Blocks
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.ValueIdx Cert.Attention
open Idealize.ShloMosaic.Pipeline (Dat)

variable (m : (ℓ : Loc nD τ sig) → Buf (Elt Ideal) ℓ) (ρ : Dev nD → PrngReg)

/-! ## The arrays the region finds -/

/-- The query array the region finds is the first argument with batch and head merged. -/
theorem entry_q (c : Dev nD) :
    V m c main_v0 = shapeCast S64x2048x64 (m ((c.tc : Thread nD τ).loc main_arg0)) shapeCasts_S4x16x2048x64_S64x2048x64 := by
  show StableHlo.after hostOps0 (fun b => m (c, b)) (Proc.devRef .tc main_v0) = _
  after_results
  rfl

/-- The key array the region finds is the second argument with batch and head merged. -/
theorem entry_k (c : Dev nD) :
    V m c main_v1 = shapeCast S64x2048x64 (m ((c.tc : Thread nD τ).loc main_arg1)) shapeCasts_S4x16x2048x64_S64x2048x64 := by
  show StableHlo.after hostOps0 (fun b => m (c, b)) (Proc.devRef .tc main_v1) = _
  after_results
  rfl

/-- The value array the region finds is the third argument with batch and head merged. -/
theorem entry_v (c : Dev nD) :
    V m c main_v2 = shapeCast S64x2048x64 (m ((c.tc : Thread nD τ).loc main_arg2)) shapeCasts_S4x16x2048x64_S64x2048x64 := by
  show StableHlo.after hostOps0 (fun b => m (c, b)) (Proc.devRef .tc main_v2) = _
  after_results
  rfl

/-! ## The results after the host's last two lines -/

/-- The first result is the region's output array with the heads split again. -/
theorem tail_out (c : Dev nD) :
    Pipeline.afterTail₀ cfgs (dats m) 0 (V0 m) [hostOps1] c main_v4
      = shapeCast S4x16x2048x64 ((dats m 0 c).arrAt 3 cfg0.N) shapeCasts_S64x2048x64_S4x16x2048x64 := by
  unfold Pipeline.afterTail₀
  show StableHlo.after hostOps1 _ (Proc.devRef .tc main_v4) = _
  after_results
  exact congrArg (fun X => shapeCast S4x16x2048x64 X shapeCasts_S64x2048x64_S4x16x2048x64)
    (Pipeline.withArrays_arr spec0 launch0.win.arr_inj c _ _ 3)

/-- The second result is the region's weights array with the heads split again. -/
theorem tail_weights (c : Dev nD) :
    Pipeline.afterTail₀ cfgs (dats m) 0 (V0 m) [hostOps1] c main_v5
      = shapeCast S4x16x2048x2048 ((dats m 0 c).arrAt 4 cfg0.N) shapeCasts_S64x2048x2048_S4x16x2048x2048 := by
  unfold Pipeline.afterTail₀
  show StableHlo.after hostOps1 _ (Proc.devRef .tc main_v5) = _
  after_results
  exact congrArg (fun X => shapeCast S4x16x2048x2048 X shapeCasts_S64x2048x2048_S4x16x2048x2048)
    (Pipeline.withArrays_arr spec0 launch0.win.arr_inj c _ _ 4)

/-- The first result is the attention output of the arguments. -/
theorem result_out (c : Dev nD) :
    Pipeline.afterTail₀ cfgs (dats m) 0 (V0 m) [hostOps1] c main_v4
      = mixed4 (m ((c.tc : Thread nD τ).loc main_arg0)) (m ((c.tc : Thread nD τ).loc main_arg1)) (m ((c.tc : Thread nD τ).loc main_arg2)) := by
  rw [tail_out, Blocks.final_mixed, entry_q, entry_k, entry_v]
  exact mixed_merge _ _ _ _ _

/-- The second result is the attention weights of the arguments. -/
theorem result_weights (c : Dev nD) :
    Pipeline.afterTail₀ cfgs (dats m) 0 (V0 m) [hostOps1] c main_v5
      = weights4 (m ((c.tc : Thread nD τ).loc main_arg0)) (m ((c.tc : Thread nD τ).loc main_arg1)) := by
  rw [tail_weights, Blocks.final_weights, entry_q, entry_k]
  exact weights_merge _ _ _ _

/-! ## The run -/

/-- Every weakly fair execution of the kernel's @main terminates with the first result at the attention output and
    the second at the attention weights of the arguments, and the arguments unchanged. -/
theorem run : θ_run defs (onTc (τ := τ) (main (F := Ideal))) ⟨m, fun _ => 0, ρ⟩ fun r => ∀ c : Dev nD,
      r.2.mem ((c.tc : Thread nD τ).loc main_v4) = mixed4 (m ((c.tc : Thread nD τ).loc main_arg0)) (m ((c.tc : Thread nD τ).loc main_arg1)) (m ((c.tc : Thread nD τ).loc main_arg2))
      ∧ r.2.mem ((c.tc : Thread nD τ).loc main_v5) = weights4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (result_out m c),
      ((h c).2 main_v5 (Pipeline.mem_restRefs_of main_v5 (by decide) (by decide))).trans (result_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefRead.lean ====
/-
  The reference, stage by stage, is attention on the split arrays.

  Its scores are one batched product over the features, contracting the last axis of both operands with the batch
  and the head as batch axes, times the constant 2^-3. Its softmax takes the row maximum along the last axis from
  minus infinity and then clamps it from below by minus infinity once more, which changes nothing: a fold of max
  is never below the value it starts from. The exponentials of the scores less that maximum are summed along the
  last axis from zero and divided by the sum; the second batched product contracts the key rows. Read at an index,
  each stage is the matching step of `weights4` / `mixed4`.
-/
import proofs.«163219_j20066087207356_2_alg».proof.Proof.Gen.ReferenceIdeal.Read
import proofs.«163219_j20066087207356_2_alg».proof.Proof.LibLastAxisMax
import proofs.«163219_j20066087207356_2_alg».proof.Proof.Spec

noncomputable section

namespace Cert.ReferenceIdeal.RefValue

open Idealize.ShloMosaic Idealize.ShloMosaic.ValueIdx Cert.ReferenceIdeal Cert.ReferenceIdeal.Gen Cert.ReferenceIdeal.Read
open Cert.Attention

/-- The scaled scores, at (b, h, r, j). -/
theorem scaled_apply (Q K : (⟨S4x16x2048x64, .f32⟩ : BufTy).Contents (Elt Ideal)) (b : Fin 4) (h : Fin 16) (r j : Fin 2048) :
    val_main_v2 (F := Ideal) Q K (ix4 b h r j) = scores4 Q K b h r j := by
  rw [val_main_v2_apply, val_main_v0_apply, val_main_v1_apply, val_main_cst_apply]
  have el : ∀ d : Fin 64, lidx_main_v0 (ix4 b h r j) d = ix4 b h r d := fun d => funext fun a => Fin.ext (by match a with | ⟨0, _⟩ => rfl | ⟨1, _⟩ => rfl | ⟨2, _⟩ => rfl | ⟨3, _⟩ => rfl)
  have er : ∀ d : Fin 64, ridx_main_v0 (ix4 b h r j) d = ix4 b h j d := fun d => funext fun a => Fin.ext (by match a with | ⟨0, _⟩ => rfl | ⟨1, _⟩ => rfl | ⟨2, _⟩ => rfl | ⟨3, _⟩ => rfl)
  simp only [el, er]
  rfl

/-- The row maximum, clamped from below by its own starting value, at (b, h, r). -/
theorem rowmax_apply (Q K : (⟨S4x16x2048x64, .f32⟩ : BufTy).Contents (Elt Ideal)) (b : Fin 4) (h : Fin 16) (r : Fin 2048) :
    val_main_v5 (F := Ideal) Q K (ix3 b h r) = rowMax (scores4 Q K b h r) := by
  have h3 : val_main_v3 (F := Ideal) Q K (ix3 b h r) = rowMax (scores4 Q K b h r) := by
    unfold val_main_v3
    rw [LastAxisMax.hostMax_last4 _ _ reducesTo_S4x16x2048x2048_S4x16x2048_d3 (by decide) h_S_ b h r]
    exact congrArg ((Finset.univ : Finset (Fin 2048)).fold max (Ideal.ofBits .f32 0xFF800000#32))
      (funext fun k => scaled_apply Q K b h r k)
  rw [val_main_v5_apply, val_main_v4_apply, val_main_cst_1_apply, h3]
  exact LastAxisMax.max_init_fold _ _ _

/-- The exponentials of the scores less their row's maximum, at (b, h, r, j). -/
theorem exps_apply (Q K : (⟨S4x16x2048x64, .f32⟩ : BufTy).Contents (Elt Ideal)) (b : Fin 4) (h : Fin 16) (r j : Fin 2048) :
    val_main_v9 (F := Ideal) Q K (ix4 b h r j) = Ideal.exp (scores4 Q K b h r j - rowMax (scores4 Q K b h r)) := by
  rw [val_main_v9_apply, val_main_v8_apply, scaled_apply, val_main_v7_apply, val_main_v6_apply]
  have e : idx_main_v6 (idx_main_v7 (ix4 b h r j)) = ix3 b h r := funext fun a => Fin.ext (by match a with | ⟨0, _⟩ => rfl | ⟨1, _⟩ => rfl | ⟨2, _⟩ => rfl)
  rw [e, rowmax_apply]
  rfl

/-- Their row sums from zero, at (b, h, r). -/
theorem rowsum_apply (Q K : (⟨S4x16x2048x64, .f32⟩ : BufTy).Contents (Elt Ideal)) (b : Fin 4) (h : Fin 16) (r : Fin 2048) :
    val_main_v10 (F := Ideal) Q K (ix3 b h r) = ∑ j : Fin 2048, Ideal.exp (scores4 Q K b h r j - rowMax (scores4 Q K b h r)) := by
  rw [val_main_v10_apply, val_main_cst_2_apply]
  have e : ∀ k : Fin 2048, idx_main_v10 (ix3 b h r) k = ix4 b h r k := fun k => funext fun a => Fin.ext (by match a with | ⟨0, _⟩ => rfl | ⟨1, _⟩ => rfl | ⟨2, _⟩ => rfl | ⟨3, _⟩ => rfl)
  simp only [e, exps_apply]
  show Ideal.ofBits .f32 0x00000000#32 + _ = _
  rw [Ideal.ofBits_zero_f32, zero_add]

/-- The reference's second result is the attention weights. -/
theorem weights_eq (Q K : (⟨S4x16x2048x64, .f32⟩ : BufTy).Contents (Elt Ideal)) : val_main_v13 (F := Ideal) Q K = weights4 Q K := by
  funext i
  obtain ⟨b, h, r, j, rfl⟩ : ∃ (b : Fin 4) (h : Fin 16) (r : Fin 2048) (j : Fin 2048), i = ix4 b h r j :=
    ⟨i 0, i 1, i 2, i 3, eq_ix4 i⟩
  rw [val_main_v13_apply, exps_apply, val_main_v12_apply, val_main_v11_apply]
  have e : idx_main_v11 (idx_main_v12 (ix4 b h r j)) = ix3 b h r := funext fun a => Fin.ext (by match a with | ⟨0, _⟩ => rfl | ⟨1, _⟩ => rfl | ⟨2, _⟩ => rfl)
  rw [e, rowsum_apply, weights4_apply]
  rfl

/-- The reference's first result is the attention output. -/
theorem mixed_eq (Q K V : (⟨S4x16x2048x64, .f32⟩ : BufTy).Contents (Elt Ideal)) : val_main_v14 (F := Ideal) Q K V = mixed4 Q K V := by
  funext i
  obtain ⟨b, h, r, e, rfl⟩ : ∃ (b : Fin 4) (h : Fin 16) (r : Fin 2048) (e : Fin 64), i = ix4 b h r e :=
    ⟨i 0, i 1, i 2, i 3, eq_ix4 i⟩
  rw [val_main_v14_apply, mixed4_apply, weights_eq]
  refine Finset.sum_congr rfl fun j _ => ?_
  have el : lidx_main_v14 (ix4 b h r e) j = ix4 b h r j := funext fun a => Fin.ext (by match a with | ⟨0, _⟩ => rfl | ⟨1, _⟩ => rfl | ⟨2, _⟩ => rfl | ⟨3, _⟩ => rfl)
  have er : ridx_main_v14 (ix4 b h r e) j = ix4 b h j e := funext fun a => Fin.ext (by match a with | ⟨0, _⟩ => rfl | ⟨1, _⟩ => rfl | ⟨2, _⟩ => rfl | ⟨3, _⟩ => rfl)
  rw [el, er]

end Cert.ReferenceIdeal.RefValue

end
-- ==== Proof.lean ====
/-
  Scaled dot-product attention returning its output and its weights: a kernel that works one head and one block
  of 512 query rows at a time, against the plain batched formulation.

  Both programs compute, for every batch b, head h and query row r, the scores of the row against the 2048 key
  rows (dot products over 64 features, times 2^-3), their softmax taken the stable way (subtract the row's largest
  score, exponentiate, divide by the row's sum), and the weights' combination of the value rows. The kernel merges
  batch and head into one leading axis of extent 64, walks a grid of 64 heads by 4 row blocks, and at a point
  writes the block of the weights and of the output for its 512 rows, reading the head's whole key and value
  arrays; afterwards the heads are split again. A row's weights and output depend on its own query row and its own
  head's keys and values only, so the blocks are blocks of one whole-array function; the blocks tile the arrays;
  and merging the heads commutes with that function. The reference takes the same steps on the split arrays in
  one piece, clamping the row maximum from below by minus infinity once more, which changes nothing. Every
  operation is the extended reals' own on both sides, so the two results agree entry by entry at every extended
  real input: finiteness of the inputs is not used.

  The word-level kernel's and the idealized kernel's frames are the generated ones; the reference's frame is its
  generated run with the results dropped; no operation was rewritten in idealizing the kernel, so that claim is
  trivial.
-/
import proofs.«163219_j20066087207356_2_alg».proof.Defs
import proofs.«163219_j20066087207356_2_alg».proof.Proof.Gen.Kernel
import proofs.«163219_j20066087207356_2_alg».proof.Proof.Gen.Kernel.Skeleton
import proofs.«163219_j20066087207356_2_alg».proof.Proof.Gen.Kernel.Launch
import proofs.«163219_j20066087207356_2_alg».proof.Proof.Gen.Kernel.Points
import proofs.«163219_j20066087207356_2_alg».proof.Proof.Gen.Kernel.Frame
import proofs.«163219_j20066087207356_2_alg».proof.Proof.Gen.KernelIdeal
import proofs.«163219_j20066087207356_2_alg».proof.Proof.Gen.KernelIdeal.Skeleton
import proofs.«163219_j20066087207356_2_alg».proof.Proof.Gen.KernelIdeal.Launch
import proofs.«163219_j20066087207356_2_alg».proof.Proof.Gen.KernelIdeal.Points
import proofs.«163219_j20066087207356_2_alg».proof.Proof.Gen.KernelIdeal.Frame
import proofs.«163219_j20066087207356_2_alg».proof.Proof.Gen.ReferenceIdeal
import proofs.«163219_j20066087207356_2_alg».proof.Proof.Gen.Pre_finite_inputs
import proofs.«163219_j20066087207356_2_alg».proof.Proof.Gen.ReferenceIdeal.Run
import proofs.«163219_j20066087207356_2_alg».proof.Proof.Gen.ReferenceIdeal.Read
import proofs.«163219_j20066087207356_2_alg».proof.Proof.KernelRun
import proofs.«163219_j20066087207356_2_alg».proof.Proof.RefRead
import Idealize.ShloMosaic.Adequacy
import Idealize.ShloMosaic.Init

noncomputable section

namespace Cert.Proof

open Idealize.ShloMosaic Idealize.SL.Sem Cert.Attention

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Idealizing the kernel rewrote no operation. -/
theorem preserves : Cert.preserves_Kernel_KernelIdeal := trivial

/-- From memories agreeing on the arguments both programs end with the attention output and the attention
    weights of those arguments. -/
theorem algebraic : Cert.algebraic_KernelIdeal_ReferenceIdeal := by
  intro m ρ m' ρ' _ hagree
  refine ⟨fun c => mixed4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => weights4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.ReferenceIdeal.RefValue.mixed_eq,
      (hagree c).1, (hagree c).2.1, (hagree c).2.2]
  · rw [(h c).2.1, Cert.ReferenceIdeal.Read.val_main_v13_eq, Cert.ReferenceIdeal.RefValue.weights_eq,
      (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
